-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768x32x32 : Shape := ⟨4, ![32, 768, 32, 32]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S32x768x32x32 : S_.BroadcastsInDim S32x768x32x32 (![] : Fin 0 → Fin S32x768x32x32.rank)
  reducesTo_S32x768x32x32_S_d0_1_2_3 : S32x768x32x32.ReducesTo [0, 1, 2, 3] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S32x768x32x32 .f32) (main_arg1 : FVec F S2304x768 .f32) (main_arg2 : FVec F S768x768 .f32) (main_arg3 : FVec F S768 .f32) : IVec S_ 1 :=
  let main_v0 : FVec F S32x768x32x32 .f32 := Host.absf main_arg0
  let main_cst : FVec F S_ .f32 := constant S_ .f32 0x7F800000#32
  let main_v1 : FVec F S32x768x32x32 .f32 := broadcastInDim S32x768x32x32 ![] bcast_S_S32x768x32x32 main_cst
  let main_v2 : IVec S32x768x32x32 1 := cmpf .olt main_v0 main_v1
  let main_c : IVec S_ 1 := constantI S_ 1 1#1
  let main_v3 : IVec S_ 1 := (fun x v => Host.reduce IntOp.andi x v reducesTo_S32x768x32x32_S_d0_1_2_3 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S32x768x32x32 : Shape := ⟨4, ![32, 768, 32, 32]⟩
abbrev S2304x768 : Shape := ⟨2, ![2304, 768]⟩
abbrev S768x768 : Shape := ⟨2, ![768, 768]⟩
abbrev S768 : Shape := ⟨1, ![768]⟩
abbrev S32x768x1024 : Shape := ⟨3, ![32, 768, 1024]⟩
abbrev S768x1 : Shape := ⟨2, ![768, 1]⟩
abbrev S1x768x1024 : Shape := ⟨3, ![1, 768, 1024]⟩
abbrev S768x1024 : Shape := ⟨2, ![768, 1024]⟩

abbrev nBuf : Space → Nat
  | .hbm => 10
  | .vmem => 11
  | .smem => 0
  | _ => 0

abbrev bufTy : (tb : Table) → Fin (tcTables nBuf tb) → BufTy
  | .hbm, ⟨0, _⟩ => ⟨S32x768x32x32, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S32x768x1024, .f32⟩
  | .hbm, ⟨5, _⟩ => ⟨S2304x768, .bf16⟩
  | .hbm, ⟨6, _⟩ => ⟨S768x768, .bf16⟩
  | .hbm, ⟨7, _⟩ => ⟨S768x1, .f32⟩
  | .hbm, ⟨8, _⟩ => ⟨S32x768x1024, .f32⟩
  | .hbm, ⟨9, _⟩ => ⟨S32x768x32x32, .f32⟩
  | .local _ .vmem, ⟨0, _⟩ => ⟨S1x768x1024, .f32⟩
  | .local _ .vmem, ⟨1, _⟩ => ⟨S1x768x1024, .f32⟩
  | .local _ .vmem, ⟨2, _⟩ => ⟨S2304x768, .bf16⟩
  | .local _ .vmem, ⟨3, _⟩ => ⟨S768x768, .bf16⟩
  | .local _ .vmem, ⟨4, _⟩ => ⟨S768x1, .f32⟩
  | .local _ .vmem, ⟨5, _⟩ => ⟨S1x768x1024, .f32⟩
  | .local _ .vmem, ⟨6, _⟩ => ⟨S1x768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x768x32x32_S32x768x1024 : S32x768x32x32.ShapeCasts S32x768x1024
  bitsLt_bf16_f32 : FTy.bits .bf16 < FTy.bits .f32
  shapeCasts_S768_S768x1 : S768.ShapeCasts S768x1
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  slices_S2304x768_o0_0_S768x768 : S2304x768.Slices ![0, 0] S768x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  packedbf16_S768x1024_S768x1024_0_0 : (Rect.unit (s := S768x1024) ![0, 0] S768x1024.size inb_S768x1024_S768x1024_0_0).PackedRows (EltTy.packing .bf16)
  slices_S2304x768_o768_0_S768x768 : S2304x768.Slices ![768, 0] S768x768
  slices_S2304x768_o1536_0_S768x768 : S2304x768.Slices ![1536, 0] S768x768
  reduces_S768x768_S768 : S768x768.Reduces [1] S768
  broadcasts_S768x1_S768x768 : S768x1.Broadcasts S768x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768x1_S768x1_0_0 : ∀ a, (![0, 0] : Fin 2 → Nat) a + S768x1.size a ≤ S768x1.size a
  h_S768x1 : 0 < S768x1.numel
  shapeCasts_S768x1_S768x1 : S768x1.ShapeCasts S768x1
  broadcasts_S768x1_S768x1024 : S768x1.Broadcasts S768x1024
  shapeCasts_S768x1024_S1x768x1024 : S768x1024.ShapeCasts S1x768x1024
  shapeCasts_S32x768x1024_S32x768x32x32 : S32x768x1024.ShapeCasts S32x768x32x32
  dot_S768x768_S768x1024_S768x1024_1_0_0_1_n_n_wf : DotDims.WF S768x768 S768x1024 S768x1024 [1] [0] [0] [1] [] []
  dot_S768x1024_S768x1024_S768x768_1_1_0_0_n_n_wf : DotDims.WF S768x1024 S768x1024 S768x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x1024.size a ≤ S32x768x1024.size a
  hwx0_0 : ∀ i : grid0.Coords, EltTy.bits .f32 = 32 ∨ (Rect.block (s := S32x768x1024) S1x768x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1.size a ≤ S768x1.size a
  hwx0_3 : ∀ i : grid0.Coords, EltTy.bits .f32 = 32 ∨ (Rect.block (s := S768x1) S768x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x1024.size a ≤ S32x768x1024.size a
  hwx0_4 : ∀ i : grid0.Coords, EltTy.bits .f32 = 32 ∨ (Rect.block (s := S32x768x1024) S1x768x1024.size (cc0_transform_4 i) (hinb0_4 i)).WholeWords (EltTy.packing .f32)

variable [Facts₀]

def dot_S768x768_S768x1024_S768x1024_1_0_0_1_n_n : DotDims S768x768 S768x1024 S768x1024 where
  lhsContracting := [1]
  rhsContracting := [0]
  lhsNonContracting := [0]
  rhsNonContracting := [1]
  lhsBatch := []
  rhsBatch := []
  wf := dot_S768x768_S768x1024_S768x1024_1_0_0_1_n_n_wf
def dot_S768x1024_S768x1024_S768x768_1_1_0_0_n_n : DotDims S768x1024 S768x1024 S768x768 where
  lhsContracting := [1]
  rhsContracting := [1]
  lhsNonContracting := [0]
  rhsNonContracting := [0]
  lhsBatch := []
  rhsBatch := []
  wf := dot_S768x1024_S768x1024_S768x768_1_1_0_0_n_n_wf

abbrev win0_0 : Pipeline.Window sig grid0 :=
  Pipeline.Window.ofSpec (Memref.whole main_v0) S1x768x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x768x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x768x32x32 : Shape := ⟨4, ![32, 768, 32, 32]⟩
abbrev S2304x768 : Shape := ⟨2, ![2304, 768]⟩
abbrev S768x768 : Shape := ⟨2, ![768, 768]⟩
abbrev S768 : Shape := ⟨1, ![768]⟩
abbrev S32x768x1024 : Shape := ⟨3, ![32, 768, 1024]⟩
abbrev S32x1024x768 : Shape := ⟨3, ![32, 1024, 768]⟩
abbrev S32x1024x2304 : Shape := ⟨3, ![32, 1024, 2304]⟩
abbrev S32x768x768 : Shape := ⟨3, ![32, 768, 768]⟩
abbrev S_ : Shape := ⟨0, ![]⟩
abbrev S32x768 : Shape := ⟨2, ![32, 768]⟩
abbrev S32x768x1 : Shape := ⟨3, ![32, 768, 1]⟩
abbrev S1x1x768 : Shape := ⟨3, ![1, 1, 768]⟩

abbrev nBuf : Space → Nat
  | .hbm => 39
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S32x768x1024, .f32⟩
  | .hbm, ⟨5, _⟩ => ⟨S32x1024x768, .f32⟩
  | .hbm, ⟨6, _⟩ => ⟨S32x1024x2304, .f32⟩
  | .hbm, ⟨7, _⟩ => ⟨S32x1024x768, .f32⟩
  | .hbm, ⟨8, _⟩ => ⟨S32x1024x768, .f32⟩
  | .hbm, ⟨9, _⟩ => ⟨S32x1024x768, .f32⟩
  | .hbm, ⟨10, _⟩ => ⟨S32x768x1024, .f32⟩
  | .hbm, ⟨11, _⟩ => ⟨S32x768x1024, .f32⟩
  | .hbm, ⟨12, _⟩ => ⟨S32x768x1024, .f32⟩
  | .hbm, ⟨13, _⟩ => ⟨S32x768x768, .f32⟩
  | .hbm, ⟨14, _⟩ => ⟨S_, .f32⟩
  | .hbm, ⟨15, _⟩ => ⟨S32x768x768, .f32⟩
  | .hbm, ⟨16, _⟩ => ⟨S32x768x768, .f32⟩
  | .hbm, ⟨17, _⟩ => ⟨S_, .f32⟩
  | .hbm, ⟨18, _⟩ => ⟨S32x768, .f32⟩
  | .hbm, ⟨19, _⟩ => ⟨S_, .f32⟩
  | .hbm, ⟨20, _⟩ => ⟨S32x768, .f32⟩
  | .hbm, ⟨21, _⟩ => ⟨S32x768, .f32⟩
  | .hbm, ⟨22, _⟩ => ⟨S32x768x1, .f32⟩
  | .hbm, ⟨23, _⟩ => ⟨S32x768x768, .f32⟩
  | .hbm, ⟨24, _⟩ => ⟨S32x768x768, .f32⟩
  | .hbm, ⟨25, _⟩ => ⟨S32x768x768, .f32⟩
  | .hbm, ⟨26, _⟩ => ⟨S_, .f32⟩
  | .hbm, ⟨27, _⟩ => ⟨S32x768, .f32⟩
  | .hbm, ⟨28, _⟩ => ⟨S32x768x1, .f32⟩
  | .hbm, ⟨29, _⟩ => ⟨S32x768x768, .f32⟩
  | .hbm, ⟨30, _⟩ => ⟨S32x768x768, .f32⟩
  | .hbm, ⟨31, _⟩ => ⟨S32x768x1024, .f32⟩
  | .hbm, ⟨32, _⟩ => ⟨S32x1024x768, .f32⟩
  | .hbm, ⟨33, _⟩ => ⟨S32x1024x768, .f32⟩
  | .hbm, ⟨34, _⟩ => ⟨S1x1x768, .f32⟩
  | .hbm, ⟨35, _⟩ => ⟨S32x1024x768, .f32⟩
  | .hbm, ⟨36, _⟩ => ⟨S32x1024x768, .f32⟩
  | .hbm, ⟨37, _⟩ => ⟨S32x768x1024, .f32⟩
  | .hbm, ⟨38, _⟩ => ⟨S32x768x32x32, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  shapeCasts_S32x768x32x32_S32x768x1024 : S32x768x32x32.ShapeCasts S32x768x1024
  transposes_S32x768x1024_S32x1024x768_0_2_1 : S32x768x1024.Transposes [0, 2, 1] S32x1024x768
  slices_S32x1024x2304_S32x1024x768_0_0_0 : S32x1024x2304.Slices ![0, 0, 0] S32x1024x768
  slices_S32x1024x2304_S32x1024x768_0_0_768 : S32x1024x2304.Slices ![0, 0, 768] S32x1024x768
  slices_S32x1024x2304_S32x1024x768_0_0_1536 : S32x1024x2304.Slices ![0, 0, 1536] S32x1024x768
  transposes_S32x1024x768_S32x768x1024_0_2_1 : S32x1024x768.Transposes [0, 2, 1] S32x768x1024
  bcast_S_S32x768x768 : S_.BroadcastsInDim S32x768x768 (![] : Fin 0 → Fin S32x768x768.rank)
  reducesTo_S32x768x768_S32x768_d2 : S32x768x768.ReducesTo [2] S32x768
  h_S_ : 0 < S_.numel
  bcast_S_S32x768 : S_.BroadcastsInDim S32x768 (![] : Fin 0 → Fin S32x768.rank)
  bcast_S32x768_S32x768x1_0_1 : S32x768.BroadcastsInDim S32x768x1 (![0, 1] : Fin 2 → Fin S32x768x1.rank)
  bcast_S32x768x1_S32x768x768_0_1_2 : S32x768x1.BroadcastsInDim S32x768x768 (![0, 1, 2] : Fin 3 → Fin S32x768x768.rank)
  bcast_S768_S1x1x768_2 : S768.BroadcastsInDim S1x1x768 (![2] : Fin 1 → Fin S1x1x768.rank)
  bcast_S1x1x768_S32x1024x768_0_1_2 : S1x1x768.BroadcastsInDim S32x1024x768 (![0, 1, 2] : Fin 3 → Fin S32x1024x768.rank)
  shapeCasts_S32x768x1024_S32x768x32x32 : S32x768x1024.ShapeCasts S32x768x32x32
  dot_S32x1024x768_S2304x768_S32x1024x2304_2_1_01_0_n_n_wf : DotDims.WF S32x1024x768 S2304x768 S32x1024x2304 [2] [1] [0, 1] [0] [] []
  dot_S32x768x1024_S32x768x1024_S32x768x768_2_2_1_1_0_0_wf : DotDims.WF S32x768x1024 S32x768x1024 S32x768x768 [2] [2] [1] [1] [0] [0]
  dot_S32x768x768_S32x768x1024_S32x768x1024_2_1_1_2_0_0_wf : DotDims.WF S32x768x768 S32x768x1024 S32x768x1024 [2] [1] [1] [2] [0] [0]
  dot_S32x1024x768_S768x768_S32x1024x768_2_1_01_0_n_n_wf : DotDims.WF S32x1024x768 S768x768 S32x1024x768 [2] [1] [0, 1] [0] [] []

variable [Facts₀]

def dot_S32x1024x768_S2304x768_S32x1024x2304_2_1_01_0_n_n : DotDims S32x1024x768 S2304x768 S32x1024x2304 where
  lhsContracting := [2]
  rhsContracting := [1]
  lhsNonContracting := [0, 1]
  rhsNonContracting := [0]
  lhsBatch := []
  rhsBatch := []
  wf := dot_S32x1024x768_S2304x768_S32x1024x2304_2_1_01_0_n_n_wf
def dot_S32x768x1024_S32x768x1024_S32x768x768_2_2_1_1_0_0 : DotDims S32x768x1024 S32x768x1024 S32x768x768 where
  lhsContracting := [2]
  rhsContracting := [2]
  lhsNonContracting := [1]
  rhsNonContracting := [1]
  lhsBatch := [0]
  rhsBatch := [0]
  wf := dot_S32x768x1024_S32x768x1024_S32x768x768_2_2_1_1_0_0_wf
def dot_S32x768x768_S32x768x1024_S32x768x1024_2_1_1_2_0_0 : DotDims S32x768x768 S32x768x1024 S32x768x1024 where
  lhsContracting := [2]
  rhsContracting := [1]
  lhsNonContracting := [1]
  rhsNonContracting := [2]
  lhsBatch := [0]
  rhsBatch := [0]
  wf := dot_S32x768x768_S32x768x1024_S32x768x1024_2_1_1_2_0_0_wf
def dot_S32x1024x768_S768x768_S32x1024x768_2_1_01_0_n_n : DotDims S32x1024x768 S768x768 S32x1024x768 where
  lhsContracting := [2]
  rhsContracting := [1]
  lhsNonContracting := [0, 1]
  rhsNonContracting := [0]
  lhsBatch := []
  rhsBatch := []
  wf := dot_S32x1024x768_S768x768_S32x1024x768_2_1_01_0_n_n_wf

class Facts : Prop extends Facts₀ where

variable [Facts]
-- ==== Proof.AttnSpec.lean ====
/-
  Attention over channels, for one batch element and for the whole batch, as functions of the argument arrays on the
  extended reals.

  One batch element is a 768 × 1024 matrix X (channels by positions). The stacked weight W (2304 × 768) gives three
  projections Q, K, V = W[0:768] · X, W[768:1536] · X, W[1536:2304] · X (each 768 × 1024). The score of channels c and d
  is the inner product of rows c of Q and d of K over the positions, times the scale; each row of scores is
  softmax-normalised (the row's maximum subtracted, exponentials, divided by their sum); the normalised scores mix the
  rows of V; the output weight Wo (768 × 768) is applied and the bias added per output channel.

  The scale and the reductions' starting values are kept as the words both programs carry: they are never evaluated.
-/
import Idealize.ShloMosaic.PureOps.Ideal
import Idealize.ShloMosaic.Lib.ValueIdx

noncomputable section

namespace Cert.AttnSpec

open Idealize.ShloMosaic Idealize.ShloMosaic.ValueIdx

/-- A two-axis array as the matrix of its entries. -/
abbrev mat2 {a b : Nat} (v : (⟨2, ![a, b]⟩ : Shape).Idx → EReal) : Fin a → Fin b → EReal := fun p q => v (ix2 p q)

/-- The scale of the scores, the word both programs carry (the f32 nearest 192^(-1/2)). -/
abbrev scale : EReal := Ideal.ofBits .f32 0x3D93CD3A#32

/-- The starting value of a row maximum, the word both programs carry (−∞). -/
abbrev negInf : EReal := Ideal.ofBits .f32 0xFF800000#32

/-- Row `off + c` of the stacked projection weight: the three projections take `off` = 0, 768, 1536. -/
def wrow (off : Nat) (h : off + 768 ≤ 2304) (c : Fin 768) : Fin 2304 := ⟨off + c.val, by have := c.isLt; omega⟩

/-- One projection: rows `off .. off + 767` of W times X. -/
def proj (W : Fin 2304 → Fin 768 → EReal) (X : Fin 768 → Fin 1024 → EReal) (off : Nat) (h : off + 768 ≤ 2304)
    (c : Fin 768) (n : Fin 1024) : EReal :=
  ∑ k : Fin 768, W (wrow off h c) k * X k n

/-- The scaled score of channels `c` and `d`: rows `c` of Q and `d` of K multiplied over the positions. -/
def score (Q K : Fin 768 → Fin 1024 → EReal) (c d : Fin 768) : EReal :=
  (∑ n : Fin 1024, Q c n * K d n) * scale

/-- A row's maximum, from −∞ (and once more against −∞, as both programs compute it). -/
def rowMax (S : Fin 768 → Fin 768 → EReal) (c : Fin 768) : EReal :=
  max negInf ((Finset.univ : Finset (Fin 768)).fold max negInf (fun d => S c d))

/-- The exponential of a score less its row's maximum. -/
def expo (S : Fin 768 → Fin 768 → EReal) (c d : Fin 768) : EReal := Ideal.exp (S c d - rowMax S c)

/-- The softmax of a row of scores. -/
def soft (S : Fin 768 → Fin 768 → EReal) (c d : Fin 768) : EReal :=
  Ideal.div (expo S c d) (∑ d' : Fin 768, expo S c d')

/-- The normalised scores mixing the rows of V. -/
def mix (A : Fin 768 → Fin 768 → EReal) (V : Fin 768 → Fin 1024 → EReal) (c : Fin 768) (n : Fin 1024) : EReal :=
  ∑ d : Fin 768, A c d * V d n

/-- The output projection and the bias. -/
def outp (Wo : Fin 768 → Fin 768 → EReal) (B : Fin 768 → EReal) (Y : Fin 768 → Fin 1024 → EReal)
    (d : Fin 768) (n : Fin 1024) : EReal :=
  (∑ c : Fin 768, Wo d c * Y c n) + B d

/-- Attention over channels of one batch element. -/
def attn (W : Fin 2304 → Fin 768 → EReal) (Wo : Fin 768 → Fin 768 → EReal) (B : Fin 768 → EReal)
    (X : Fin 768 → Fin 1024 → EReal) : Fin 768 → Fin 1024 → EReal :=
  outp Wo B (mix (soft (score (proj W X 0 (by omega)) (proj W X 768 (by omega)))) (proj W X 1536 (by omega)))

/-- THE SPECIFICATION: the whole [32, 768, 1024] result, batch element by batch element, from the input viewed as
    [32, 768, 1024], the two weights and the bias. -/
def G (x : (⟨3, ![32, 768, 1024]⟩ : Shape).Idx → EReal) (w : (⟨2, ![2304, 768]⟩ : Shape).Idx → EReal)
    (wo : (⟨2, ![768, 768]⟩ : Shape).Idx → EReal) (b : (⟨1, ![768]⟩ : Shape).Idx → EReal) :
    (⟨3, ![32, 768, 1024]⟩ : Shape).Idx → EReal :=
  fun j => attn (mat2 w) (mat2 wo) (fun d => b (ix1 d))
    (fun k n => x (ix3 (j 0) k n)) (j 1) (j 2)

end Cert.AttnSpec

end
-- ==== Proof.LibLatestStore.lean ====
/-
  A buffer stored into several times and then read back.

  A list of stores (latest first) whose latest member went through the whole-shape rectangle covers the buffer, and
  what a load through the whole-shape rectangle then reads is that latest store's payload: the earlier stores are
  all overwritten.
-/
import Idealize.ShloMosaic.Lib.Pipeline.Value

noncomputable section

namespace Idealize.ShloMosaic.View

variable {Val : EltTy → Type} {S : Shape} {e : EltTy}

/-- A load of the whole buffer after stores the latest of which wrote the whole buffer reads the latest payload,
    whatever the earlier stores (the list's tail) were. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self .., by
    show y ∈ (Rect.whole S).set; rw [Rect.set_whole]; exact Finset.mem_univ y⟩), canon_cons_unit_zero rfl, ld_unit_zero rfl]

end Idealize.ShloMosaic.View

end
-- ==== Proof.KernelPiece.lean ====
/-
  What the body leaves in the output block at one grid point, as a value.

  The body keeps every intermediate in a scratch buffer: each projection is stored whole, read back, stored again in
  the narrower format and read back once more, and so on down to the output. Every such store covers its whole buffer,
  so every read-back sees exactly the value stored last. Composed, the output block is the last payload applied to the
  earlier ones, a pure function of the four input blocks.
-/
import proofs.«146230_j65481071396288_1_alg».proof.Proof.Gen.KernelIdeal.Frame
import proofs.«146230_j65481071396288_1_alg».proof.Proof.LibLatestStore
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Piece

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The body's result block as ONE term of the input blocks: the three projections, each narrowed; the attention
    product of the first two applied to the third; the output projection of that; the bias added. -/
def blockOf (x0 : Vec F S1x768x1024 .f32) (x1 : Vec F S2304x768 .bf16) (x2 : Vec F S768x768 .bf16) (x3 : Vec F S768x1 .f32) :
    Vec F S1x768x1024 .f32 :=
  k0_pay1 (k0_pay11 (k0_pay10 (k0_pay5 (k0_pay4 x0 x1)) (k0_pay7 (k0_pay6 x0 x1)) (k0_pay9 (k0_pay8 x0 x1))) x2) (k0_pay12 x3)

set_option maxHeartbeats 1600000 in
/-- What the run leaves in the output's staging buffer is that term: every scratch read-back reads the latest store. -/
theorem out_eq (c : Dev nD) (i : grid0.Coords) (arg1 : Memref sig .tc .vmem S1x768x1024 .f32) (harg1 : arg1.IsWhole) (arg2 : Memref sig .tc .vmem S2304x768 .bf16) (harg2 : arg2.IsWhole) (arg3 : Memref sig .tc .vmem S768x768 .bf16) (harg3 : arg3.IsWhole) (arg4 : Memref sig .tc .vmem S768x1 .f32) (harg4 : arg4.IsWhole) (arg5 : Memref sig .tc .vmem S1x768x1024 .f32) (harg5 : arg5.IsWhole) (arg6 : Memref sig .tc .vmem S768x1024 .f32) (harg6 : arg6.IsWhole) (arg7 : Memref sig .tc .vmem S768x1024 .bf16) (harg7 : arg7.IsWhole) (arg8 : Memref sig .tc .vmem S768x1024 .bf16) (harg8 : arg8.IsWhole) (arg9 : Memref sig .tc .vmem S768x1024 .bf16) (harg9 : arg9.IsWhole)
    (x0 : Vec F S1x768x1024 .f32) (x1 : Vec F S2304x768 .bf16) (x2 : Vec F S768x768 .bf16) (x3 : Vec F S768x1 .f32) :
    out0_A_4 c i arg1 harg1 arg2 harg2 arg3 harg3 arg4 harg4 arg5 harg5 arg6 harg6 arg7 harg7 arg8 harg8 arg9 harg9 x0 x1 x2 x3 = blockOf x0 x1 x2 x3 := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz3]
  simp only [View.readCov_cons_unit_zero (S := S768x1024) _ hz2, View.readAt_eq_ld, harg1.read_unread, harg2.read_unread,
    harg3.read_unread, harg4.read_unread, View.ld_unit_zero (S := S1x768x1024) hz3,
    View.ld_unit_zero (S := S2304x768) hz2, View.ld_unit_zero (S := S768x768) hz2, View.ld_unit_zero (S := S768x1) hz2]
  rfl

end Cert.KernelIdeal.Piece

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibRowDot.lean ====
/-
  Inner products of rows.

  Contracting an `[m, k]` matrix `A` with an `[n, k]` matrix `B` along the last axis of both gives the `[m, n]`
  table of inner products of their rows: entry `(a, b)` is `∑ c, A (a, c) · B (b, c)`, the product `A · Bᵀ`.
  At the ideal values a matrix product accumulated into zero is exactly that sum.
-/
import Idealize.ShloMosaic.PureOps.Ideal
import Idealize.ShloMosaic.PureOps.Ideal.Laws
import Idealize.ShloMosaic.Lib.ValueIdx

noncomputable section

namespace Idealize.ShloMosaic.RowDot

open Idealize.ShloMosaic Idealize.ShloMosaic.ValueIdx

variable {m n : Nat}

/-- A matrix product contracting the last axis of both operands, accumulated into zero, read at `(a, b)`: the inner
    product of row `a` of the left operand with row `b` of the right. `w` is the record's well-formedness, which a
    program states. -/
theorem matmul_rows_apply {k : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims _ _ _) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.RowDot

end
-- ==== Proof.LibColumn.lean ====
/-
  A column kept beside its matrix: the two layout steps of a keep-dimension reduction, read at an index.

  A vector of `a` entries cast to an `a × 1` column reads, at row p, the vector's entry p; an `a × 1` column broadcast
  over `b` columns reads, at (p, c), the column's entry at row p. Together: a per-row quantity (a row's maximum, a
  row's sum) placed beside every entry of its row.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast over the columns reads, at `(p, c)`, the vector at `p`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KernelPayloads.lean ====
/-
  The body's arithmetic at one output entry, on the extended reals.

  Each payload of the body is read at an index: a projection is rows of the stacked weight times the input block (a
  matrix product into a zero accumulator is the plain sum of products); narrowing a format changes nothing; the
  attention payload is the scaled inner products of rows of Q and K, softmax-normalised along each row (the row's
  maximum and the row's sum each kept as a column beside the matrix), applied to V; the output payload is the output
  weight applied to that, and the last one adds the bias column. Composed, the body's result block at (0, d, n) is
  attention over channels of the input block, at (d, n).
-/
import proofs.«146230_j65481071396288_1_alg».proof.Proof.Gen.KernelIdeal.Skeleton
import proofs.«146230_j65481071396288_1_alg».proof.Proof.KernelPiece
import proofs.«146230_j65481071396288_1_alg».proof.Proof.AttnSpec
import proofs.«146230_j65481071396288_1_alg».proof.Proof.LibPlainDot
import proofs.«146230_j65481071396288_1_alg».proof.Proof.LibRowDot
import proofs.«146230_j65481071396288_1_alg».proof.Proof.LibColumn
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payloads

open Cert.KernelIdeal Cert.KernelIdeal.Gen Cert.AttnSpec

/-- A [1, 768, 1024] block as the 768 × 1024 matrix it holds. -/
abbrev blk (x0 : S1x768x1024.Idx → EReal) : Fin 768 → Fin 1024 → EReal := fun k n => x0 (ix3 0 k n)

/-- A [768, 1] column as the vector it holds. -/
abbrev col (x3 : S768x1.Idx → EReal) : Fin 768 → EReal := fun d => x3 (ix2 d 0)

/-! ## The input block, narrowed -/

theorem pay2_apply (x0 : Vec Ideal S1x768x1024 .f32) (k : Fin 768) (n : Fin 1024) :
    k0_pay2 (F := Ideal) x0 (ix2 k n) = x0 (ix3 0 k n) := by
  unfold k0_pay2
  show shapeCast S768x1024 x0 shapeCasts_S1x768x1024_S768x1024 (ix2 k n) = _
  exact shapeCast_apply x0 _ (ix2 k n) (ix3 0 k n) (by
    rw [Shape.rowMajor_val_three, Shape.rowMajor_val_two]
    show (0 * 768 + k.val) * 1024 + n.val = k.val * 1024 + n.val
    omega)

/-! ## The three projections -/

/-- Rows `off ..` of the stacked weight, read at (c, k). -/
theorem sliceRows_apply (off : Nat) (hoff : off + 768 ≤ 2304) (w : S2304x768.Idx → EReal)
    (h : S2304x768.Slices ![off, 0] S768x768) (c k : Fin 768) :
    extractStridedSlice S768x768 ![off, 0] w h (ix2 c k) = w (ix2 (wrow off hoff c) k) :=
  extractStridedSlice_apply ![off, 0] w h (ix2 c k) (ix2 (wrow off hoff c) k) (fun a => by
    match a with
    | ⟨0, _⟩ => show (wrow off hoff c).val = off + c.val; rfl
    | ⟨1, _⟩ => show k.val = 0 + k.val; omega)

/-- A projection's payload at (c, n): rows `off ..` of the weight times the input block. -/
theorem projBlock_apply (off : Nat) (hoff : off + 768 ≤ 2304) (x0 : Vec Ideal S1x768x1024 .f32)
    (x1 : Vec Ideal S2304x768 .bf16) (hs : S2304x768.Slices ![off, 0] S768x768) (c : Fin 768) (n : Fin 1024) :
    shapeCast S768x1024 (matmul dot_S768x768_S768x1024_S768x1024_1_0_0_1_n_n none
        (extractStridedSlice S768x768 ![off, 0] (k0_pay3 (F := Ideal) x1) hs) (k0_pay2 (F := Ideal) x0)
        (constant S768x1024 .f32 0x00000000#32)) shapeCasts_S768x1024_S768x1024 (ix2 c n)
      = proj (mat2 x1) (blk x0) off hoff c n := by
  rw [shapeCast_self]
  refine (PlainDot.matmul_zero_apply (M := 768) (K := 768) (N := 1024)
    dot_S768x768_S768x1024_S768x1024_1_0_0_1_n_n_wf none _ _ c n).trans ?_
  unfold proj
  refine Finset.sum_congr rfl fun k _ => ?_
  rw [sliceRows_apply off hoff _ hs c k, pay2_apply]
  unfold k0_pay3
  rw [shapeCast_self]

theorem pay4_apply (x0 : Vec Ideal S1x768x1024 .f32) (x1 : Vec Ideal S2304x768 .bf16) (c : Fin 768) (n : Fin 1024) :
    k0_pay4 (F := Ideal) x0 x1 (ix2 c n) = proj (mat2 x1) (blk x0) 0 (by omega) c n := by
  unfold k0_pay4
  exact projBlock_apply 0 (by omega) x0 x1 _ c n

theorem pay6_apply (x0 : Vec Ideal S1x768x1024 .f32) (x1 : Vec Ideal S2304x768 .bf16) (c : Fin 768) (n : Fin 1024) :
    k0_pay6 (F := Ideal) x0 x1 (ix2 c n) = proj (mat2 x1) (blk x0) 768 (by omega) c n := by
  unfold k0_pay6
  exact projBlock_apply 768 (by omega) x0 x1 _ c n

theorem pay8_apply (x0 : Vec Ideal S1x768x1024 .f32) (x1 : Vec Ideal S2304x768 .bf16) (c : Fin 768) (n : Fin 1024) :
    k0_pay8 (F := Ideal) x0 x1 (ix2 c n) = proj (mat2 x1) (blk x0) 1536 (by omega) c n := by
  unfold k0_pay8
  exact projBlock_apply 1536 (by omega) x0 x1 _ c n

/-! ## Narrowing a projection changes nothing -/

theorem pay5_apply (v : Vec Ideal S768x1024 .f32) (i : S768x1024.Idx) : k0_pay5 (F := Ideal) v i = v i := by
  unfold k0_pay5
  rw [shapeCast_self]
  rfl

theorem pay7_apply (v : Vec Ideal S768x1024 .f32) (i : S768x1024.Idx) : k0_pay7 (F := Ideal) v i = v i := by
  unfold k0_pay7
  rw [shapeCast_self]
  rfl

theorem pay9_apply (v : Vec Ideal S768x1024 .f32) (i : S768x1024.Idx) : k0_pay9 (F := Ideal) v i = v i := by
  unfold k0_pay9
  rw [shapeCast_self]
  rfl

end Cert.KernelIdeal.Payloads

end
-- ==== Proof.KernelAttention.lean ====
/-
  The attention payload, the output projection and the bias at one entry, and the body's result block composed.

  Over a score matrix S the body computes, along each row: the maximum (a fold of max from −∞, then once more against
  −∞), kept as a column beside the matrix; the exponentials of the scores less that column; their sum, kept as a column
  too; and the quotient. Read at (c, d) these are the row maximum, the exponential, the row sum and the softmax of the
  specification. The scores are the inner products of the rows of Q and K, scaled; the softmax is applied to V by a
  plain matrix product; the output weight by another; the bias column is added.
-/
import proofs.«146230_j65481071396288_1_alg».proof.Proof.KernelPayloads

noncomputable section

open Idealize.ShloMosaic Idealize.ShloMosaic.ValueIdx

namespace Cert.KernelIdeal.Payloads

open Cert.KernelIdeal Cert.KernelIdeal.Gen Cert.AttnSpec

/-! ## A row's maximum and a row's sum -/

/-- The reduced index `c` with the column `d` put back is (c, d). -/
theorem lift_row (h : S768x768.Reduces [1] S768) (c : Fin 768) (d : Fin (S768x768.size 1)) :
    h.lift (ix1 c) d = ix2 c ⟨d.val, d.isLt⟩ := by
  funext a; apply Fin.ext
  fin_cases a <;> rfl

/-- The row maximum as the body takes it: the fold of max from −∞ along the row, then the larger of −∞ and that. -/
theorem rowMax_apply (s : FVec Ideal S768x768 .f32) (h : S768x768.Reduces [1] S768) (hφ : FKind.Formats .f32)
    (hacc : (0xFF800000#32 : BitVec 32) = FKind.maximumf.neutral .f32 hφ) (c : Fin 768) :
    maximumf (broadcast S768 (Scalar.ofBits (F := Ideal) .f32 0xFF800000#32))
        (multiReduction .maximumf [1] S768 s 0xFF800000#32 h hφ hacc) (ix1 c) = rowMax (mat2 s) c := by
  rw [maximumf_apply, broadcast_apply, Ideal.multiReduction_maximumf_single]
  have hf : (s ∘ h.lift (ix1 c)) = fun d : Fin 768 => s (ix2 c d) := funext fun d => congrArg s (lift_row h c d)
  exact congrArg (fun f => max negInf (Finset.fold max negInf f (Finset.univ : Finset (Fin 768)))) hf

/-- The row sum: the plain sum along the row. -/
theorem rowSum_apply (e : FVec Ideal S768x768 .f32) (h : S768x768.Reduces [1] S768) (hφ : FKind.Formats .f32)
    (hacc : (0x00000000#32 : BitVec 32) = FKind.add.neutral .f32 hφ) (c : Fin 768) :
    multiReduction .add [1] S768 e 0x00000000#32 h hφ hacc (ix1 c) = ∑ d : Fin 768, e (ix2 c d) := by
  rw [Ideal.multiReduction_add_single]
  exact Finset.sum_congr rfl fun d _ => congrArg e (lift_row h c d)

/-! ## The softmax of the body, piece by piece over a score matrix -/

/-- The row maxima, as a column repeated beside every entry of its row. -/
def maxCol (s : FVec Ideal S768x768 .f32) : FVec Ideal S768x768 .f32 :=
  broadcastTo S768x768 (shapeCast S768x1 (maximumf (broadcast S768 (Scalar.ofBits .f32 0xFF800000#32))
    (multiReduction .maximumf [1] S768 s 0xFF800000#32 reduces_S768x768_S768 (.inl rfl) rfl)) shapeCasts_S768_S768x1)
    broadcasts_S768x1_S768x768

/-- The exponentials of the scores less their row's maximum. -/
def expOf (s : FVec Ideal S768x768 .f32) : FVec Ideal S768x768 .f32 := exp (subf s (maxCol s))

/-- The row sums of the exponentials, as a column repeated beside every entry of its row. -/
def sumCol (s : FVec Ideal S768x768 .f32) : FVec Ideal S768x768 .f32 :=
  broadcastTo S768x768 (shapeCast S768x1 (multiReduction .add [1] S768 (expOf s) 0x00000000#32 reduces_S768x768_S768
    (.inl rfl) rfl) shapeCasts_S768_S768x1) broadcasts_S768x1_S768x768

/-- The quotient. -/
def softOf (s : FVec Ideal S768x768 .f32) : FVec Ideal S768x768 .f32 := divf (expOf s) (sumCol s)

theorem maxCol_apply (s : FVec Ideal S768x768 .f32) (c d : Fin 768) : maxCol s (ix2 c d) = rowMax (mat2 s) c :=
  (Column.column_apply _ shapeCasts_S768_S768x1 broadcasts_S768x1_S768x768 c d).trans (rowMax_apply s _ _ _ c)

theorem expOf_apply (s : FVec Ideal S768x768 .f32) (c d : Fin 768) : expOf s (ix2 c d) = expo (mat2 s) c d := by
  show Ideal.exp (s (ix2 c d) - maxCol s (ix2 c d)) = _
  rw [maxCol_apply]
  rfl

theorem sumCol_apply (s : FVec Ideal S768x768 .f32) (c d : Fin 768) :
    sumCol s (ix2 c d) = ∑ d' : Fin 768, expo (mat2 s) c d' :=
  (Column.column_apply _ shapeCasts_S768_S768x1 broadcasts_S768x1_S768x768 c d).trans
    ((rowSum_apply (expOf s) _ _ _ c).trans (Finset.sum_congr rfl fun d' _ => expOf_apply s c d'))

theorem softOf_apply (s : FVec Ideal S768x768 .f32) (c d : Fin 768) : softOf s (ix2 c d) = soft (mat2 s) c d := by
  show Ideal.div (expOf s (ix2 c d)) (sumCol s (ix2 c d)) = _
  rw [expOf_apply, sumCol_apply]
  rfl

/-! ## The scores -/

/-- The scaled inner products of the rows of Q and K, as the body computes them. -/
def scoresOf (q k : FVec Ideal S768x1024 .bf16) : FVec Ideal S768x768 .f32 :=
  mulf (matmul (φ₁ := .bf16) (φ₂ := .bf16) dot_S768x1024_S768x1024_S768x768_1_1_0_0_n_n none q k (constant S768x768 .f32 0x00000000#32))
    (broadcast S768x768 (Scalar.ofBits .f32 0x3D93CD3A#32))

theorem scoresOf_apply (q k : FVec Ideal S768x1024 .bf16) (c d : Fin 768) :
    scoresOf q k (ix2 c d) = score (mat2 q) (mat2 k) c d :=
  congrArg (fun t : EReal => t * scale)
    (RowDot.matmul_rows_apply (m := 768) (n := 768) (k := 1024) (φ₁ := .bf16) (φ₂ := .bf16)
      dot_S768x1024_S768x1024_S768x768_1_1_0_0_n_n_wf none q k c d)

/-! ## The attention payload -/

set_option maxHeartbeats 1000000 in
theorem pay10_eq (q k v : FVec Ideal S768x1024 .bf16) :
    k0_pay10 (F := Ideal) q k v
      = shapeCast S768x1024 (matmul (φ₁ := .bf16) (φ₂ := .bf16) dot_S768x768_S768x1024_S768x1024_1_0_0_1_n_n none
          (truncf .bf16 (softOf (scoresOf q k)) bitsLt_bf16_f32) v (constant S768x1024 .f32 0x00000000#32))
          shapeCasts_S768x1024_S768x1024 := rfl

theorem pay10_apply (q k v : FVec Ideal S768x1024 .bf16) (c : Fin 768) (n : Fin 1024) :
    k0_pay10 (F := Ideal) q k v (ix2 c n) = mix (soft (score (mat2 q) (mat2 k))) (mat2 v) c n := by
  rw [pay10_eq, shapeCast_self]
  refine (PlainDot.matmul_zero_apply (M := 768) (K := 768) (N := 1024) (φ₁ := .bf16) (φ₂ := .bf16)
    dot_S768x768_S768x1024_S768x1024_1_0_0_1_n_n_wf none _ _ c n).trans ?_
  unfold mix
  refine Finset.sum_congr rfl fun d _ => ?_
  rw [truncf_apply, softOf_apply]
  have hs : mat2 (scoresOf q k) = score (mat2 q) (mat2 k) := funext fun a => funext fun b => scoresOf_apply q k a b
  rw [hs]

/-! ## The output projection, the bias, the last addition -/

theorem pay11_apply (y : Vec Ideal S768x1024 .f32) (wo : Vec Ideal S768x768 .bf16) (d : Fin 768) (n : Fin 1024) :
    k0_pay11 (F := Ideal) y wo (ix2 d n) = ∑ c : Fin 768, wo (ix2 d c) * y (ix2 c n) := by
  unfold k0_pay11
  refine (PlainDot.matmul_zero_apply (M := 768) (K := 768) (N := 1024)
    dot_S768x768_S768x1024_S768x1024_1_0_0_1_n_n_wf none _ _ d n).trans ?_
  refine Finset.sum_congr rfl fun c _ => ?_
  rw [shapeCast_self]
  rfl

theorem pay12_apply (b : Vec Ideal S768x1 .f32) (d : Fin 768) (n : Fin 1024) :
    k0_pay12 (F := Ideal) b (ix2 d n) = b (ix2 d 0) := by
  unfold k0_pay12
  rw [shapeCast_self]
  exact Column.broadcastTo_a1_ab_apply b broadcasts_S768x1_S768x1024 d n

theorem pay1_apply (a b : FVec Ideal S768x1024 .f32) (d : Fin 768) (n : Fin 1024) :
    k0_pay1 (F := Ideal) a b (ix3 0 d n) = a (ix2 d n) + b (ix2 d n) := by
  unfold k0_pay1
  exact shapeCast_apply (addf a b) shapeCasts_S768x1024_S1x768x1024 (ix3 0 d n) (ix2 d n) (by
    rw [Shape.rowMajor_val_three, Shape.rowMajor_val_two]
    show d.val * 1024 + n.val = (0 * 768 + d.val) * 1024 + n.val
    omega)

/-! ## The body's result block -/

/-- THE BLOCK: what the body leaves at (0, d, n) is attention over channels of its input block, at (d, n), with the
    weights and the bias as the staged blocks hold them. -/
theorem blockOf_apply (x0 : Vec Ideal S1x768x1024 .f32) (x1 : Vec Ideal S2304x768 .bf16) (x2 : Vec Ideal S768x768 .bf16)
    (x3 : Vec Ideal S768x1 .f32) (d : Fin 768) (n : Fin 1024) :
    Piece.blockOf (F := Ideal) x0 x1 x2 x3 (ix3 0 d n) = attn (mat2 x1) (mat2 x2) (col x3) (blk x0) d n := by
  unfold Piece.blockOf
  rw [pay1_apply, pay11_apply, pay12_apply]
  unfold attn outp
  refine congrArg (fun t : EReal => t + x3 (ix2 d 0)) (Finset.sum_congr rfl fun c _ => ?_)
  rw [pay10_apply]
  have hq : mat2 (k0_pay5 (F := Ideal) (k0_pay4 x0 x1)) = proj (mat2 x1) (blk x0) 0 (by omega) :=
    funext fun a => funext fun b => (pay5_apply _ _).trans (pay4_apply x0 x1 a b)
  have hk : mat2 (k0_pay7 (F := Ideal) (k0_pay6 x0 x1)) = proj (mat2 x1) (blk x0) 768 (by omega) :=
    funext fun a => funext fun b => (pay7_apply _ _).trans (pay6_apply x0 x1 a b)
  have hv : mat2 (k0_pay9 (F := Ideal) (k0_pay8 x0 x1)) = proj (mat2 x1) (blk x0) 1536 (by omega) :=
    funext fun a => funext fun b => (pay9_apply _ _).trans (pay8_apply x0 x1 a b)
  rw [hq, hk, hv]

end Cert.KernelIdeal.Payloads

end
-- ==== Proof.KernelArray.lean ====
/-
  From the blocks to the array.

  Grid point t works on batch element t: the input window and the output window both sit at block (t, 0, 0) of a
  [32, 768, 1024] array with block [1, 768, 1024], and the two weights and the bias column are whole-array blocks at
  every point. The arrays the region finds were written by the host lines before it: the input viewed [32, 768, 1024],
  the two weights narrowed (which changes nothing on the extended reals), the bias viewed as a [768, 1] column. So what
  point t writes back is block t of ONE function of the argument arrays, the specification, and since the 32 blocks
  cover the result array, the array ends holding the specification everywhere.
-/
import proofs.«146230_j65481071396288_1_alg».proof.Proof.Gen.KernelIdeal.Frame
import proofs.«146230_j65481071396288_1_alg».proof.Proof.KernelAttention
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.AttnSpec Cert.KernelIdeal.Payloads

variable (m : (ℓ : Loc nD τ sig) → Buf (Elt Ideal) ℓ) (ρ : Dev nD → PrngReg)

/-! ## One point, over any blocks -/

/-- If the four blocks read batch element `tb` of an input X, the weights w and wo and the bias b, the body's result
    block at y is the specification of those arrays at (tb, y₁, y₂). -/
theorem block_spec (x0 : Vec Ideal S1x768x1024 .f32) (x1 : Vec Ideal S2304x768 .bf16) (x2 : Vec Ideal S768x768 .bf16)
    (x3 : Vec Ideal S768x1 .f32) (X : S32x768x1024.Idx → EReal) (w : S2304x768.Idx → EReal)
    (wo : S768x768.Idx → EReal) (b : S768.Idx → EReal) (tb : Fin 32)
    (h0 : ∀ (k : Fin 768) (n : Fin 1024), x0 (ix3 0 k n) = X (ix3 tb k n))
    (h1 : ∀ (r : Fin 2304) (k : Fin 768), x1 (ix2 r k) = w (ix2 r k))
    (h2 : ∀ (d c : Fin 768), x2 (ix2 d c) = wo (ix2 d c))
    (h3 : ∀ d : Fin 768, x3 (ix2 d 0) = b (ix1 d)) (y : S1x768x1024.Idx) :
    Piece.blockOf (F := Ideal) x0 x1 x2 x3 y = G X w wo b (ix3 tb (y 1) (y 2)) := by
  obtain ⟨u, d, n, rfl⟩ : ∃ (u : Fin 1) (d : Fin 768) (n : Fin 1024), y = ix3 u d n := ⟨y 0, y 1, y 2, eq_ix3 y⟩
  obtain rfl : u = 0 := Subsingleton.elim _ _
  rw [blockOf_apply]
  have e0 : blk x0 = fun k n => X (ix3 tb k n) := funext fun k => funext fun n => h0 k n
  have e1 : mat2 x1 = mat2 w := funext fun r => funext fun k => h1 r k
  have e2 : mat2 x2 = mat2 wo := funext fun d => funext fun c => h2 d c
  have e3 : col x3 = fun d => b (ix1 d) := funext fun d => h3 d
  rw [e0, e1, e2, e3]
  rfl

/-! ## The arrays the region finds -/

/-- The input, viewed [32, 768, 1024]. -/
abbrev X3 (c : Dev nD) : S32x768x1024.Idx → EReal :=
  shapeCast S32x768x1024 (m ((c : Thread nD τ).loc main_arg0)) shapeCasts_S32x768x32x32_S32x768x1024

theorem V_v0 (c : Dev nD) : (V m c main_v0 : S32x768x1024.Idx → EReal) = X3 m c := by
  show StableHlo.after hostOps0 (fun b => m (c, b)) (Proc.devRef .tc main_v0) = _
  after_results
  rfl

theorem V_v1 (c : Dev nD) : (V m c main_v1 : S2304x768.Idx → EReal) = m ((c : Thread nD τ).loc main_arg1) := by
  show StableHlo.after hostOps0 (fun b => m (c, b)) (Proc.devRef .tc main_v1) = _
  after_results
  rfl

theorem V_v2 (c : Dev nD) : (V m c main_v2 : S768x768.Idx → EReal) = m ((c : Thread nD τ).loc main_arg2) := by
  show StableHlo.after hostOps0 (fun b => m (c, b)) (Proc.devRef .tc main_v2) = _
  after_results
  rfl

theorem V_v3 (c : Dev nD) : (V m c main_v3 : S768x1.Idx → EReal)
    = shapeCast S768x1 (m ((c : Thread nD τ).loc main_arg3)) shapeCasts_S768_S768x1 := by
  show StableHlo.after hostOps0 (fun b => m (c, b)) (Proc.devRef .tc main_v3) = _
  after_results
  rfl

/-! ## The windows' blocks at a point -/

/-- The printed index maps, decided once over the grid: the input and output windows sit at block (t, 0, 0), the other
    three at block (0, 0). -/
theorem idx_facts : ∀ t : Fin cfg0.N,
    win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem lt32 (t : Fin cfg0.N) : t.val < 32 := lt_of_lt_of_eq t.isLt (show cfg0.N = 32 from N_0)

/-- The input block at point t reads batch element t. -/
theorem blk0_at (c : Dev nD) (t : Fin cfg0.N) (k : Fin 768) (n : Fin 1024) :
    iblk m c 0 t (ix3 0 k n) = X3 m c (ix3 ⟨t.val, lt32 t⟩ k n) := by
  obtain ⟨e0, e1, e2, -⟩ := idx_facts t
  show V m c main_v0 (((cfg0.win 0).blk t).view.emb (ix3 0 k n)) = _
  refine (congrFun (V_v0 m c) _).trans (congrArg (X3 m c) (funext fun a => Fin.ext ?_))
  match a with
  | ⟨0, _⟩ => show win0_0.index t (0 : Fin 3) * 1 + 1 * 0 = t.val; omega
  | ⟨1, _⟩ => show win0_0.index t (1 : Fin 3) * 768 + 1 * k.val = k.val; omega
  | ⟨2, _⟩ => show win0_0.index t (2 : Fin 3) * 1024 + 1 * n.val = n.val; omega

/-- The stacked weight's block at any point is the whole weight. -/
theorem blk1_at (c : Dev nD) (t : Fin cfg0.N) (r : Fin 2304) (k : Fin 768) :
    iblk m c 1 t (ix2 r k) = m ((c : Thread nD τ).loc main_arg1) (ix2 r k) := by
  obtain ⟨-, -, -, -, -, -, e0, e1, -⟩ := idx_facts t
  show V m c main_v1 (((cfg0.win 1).blk t).view.emb (ix2 r k)) = _
  refine (congrFun (V_v1 m c) _).trans (congrArg (m ((c : Thread nD τ).loc main_arg1)) (funext fun a => Fin.ext ?_))
  match a with
  | ⟨0, _⟩ => show win0_1.index t (0 : Fin 2) * 2304 + 1 * r.val = r.val; omega
  | ⟨1, _⟩ => show win0_1.index t (1 : Fin 2) * 768 + 1 * k.val = k.val; omega

/-- The output weight's block at any point is the whole weight. -/
theorem blk2_at (c : Dev nD) (t : Fin cfg0.N) (d k : Fin 768) :
    iblk m c 2 t (ix2 d k) = m ((c : Thread nD τ).loc main_arg2) (ix2 d k) := by
  obtain ⟨-, -, -, -, -, -, -, -, e0, e1, -⟩ := idx_facts t
  show V m c main_v2 (((cfg0.win 2).blk t).view.emb (ix2 d k)) = _
  refine (congrFun (V_v2 m c) _).trans (congrArg (m ((c : Thread nD τ).loc main_arg2)) (funext fun a => Fin.ext ?_))
  match a with
  | ⟨0, _⟩ => show win0_2.index t (0 : Fin 2) * 768 + 1 * d.val = d.val; omega
  | ⟨1, _⟩ => show win0_2.index t (1 : Fin 2) * 768 + 1 * k.val = k.val; omega

/-- The bias column's block at any point, at row d, is the bias at d. -/
theorem blk3_at (c : Dev nD) (t : Fin cfg0.N) (d : Fin 768) :
    iblk m c 3 t (ix2 d 0) = m ((c : Thread nD τ).loc main_arg3) (ix1 d) := by
  obtain ⟨-, -, -, -, -, -, -, -, -, -, e0, e1⟩ := idx_facts t
  show V m c main_v3 (((cfg0.win 3).blk t).view.emb (ix2 d 0)) = _
  refine (congrFun (V_v3 m c) _).trans ?_
  refine Eq.trans (congrArg (shapeCast S768x1 (m ((c : Thread nD τ).loc main_arg3)) shapeCasts_S768_S768x1)
    (funext fun a => Fin.ext ?_)) (Column.shapeCast_a_a1_apply _ shapeCasts_S768_S768x1 d 0)
  match a with
  | ⟨0, _⟩ => show win0_3.index t (0 : Fin 2) * 768 + 1 * d.val = d.val; omega
  | ⟨1, _⟩ => show win0_3.index t (1 : Fin 2) * 1 + 1 * 0 = 0; omega

/-! ## What a point writes back, and the array after the run -/

/-- The result array [32, 768, 1024] as the specification of the argument arrays. -/
abbrev result (c : Dev nD) : S32x768x1024.Idx → EReal :=
  G (X3 m c) (m ((c : Thread nD τ).loc main_arg1)) (m ((c : Thread nD τ).loc main_arg2)) (m ((c : Thread nD τ).loc main_arg3))

/-- WHAT POINT t WRITES BACK is block t of the specification. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold outsAt0
  rw [Piece.out_eq]
  obtain ⟨-, -, -, e0, e1, e2, -⟩ := idx_facts t
  funext y
  show Piece.blockOf (F := Ideal) (iblk m c 0 t) (iblk m c 1 t) (iblk m c 2 t) (iblk m c 3 t) y
    = result m c (((cfg0.win 4).blk t).view.emb y)
  refine (block_spec (iblk m c 0 t) (iblk m c 1 t) (iblk m c 2 t) (iblk m c 3 t) (X3 m c)
    (m ((c : Thread nD τ).loc main_arg1)) (m ((c : Thread nD τ).loc main_arg2)) (m ((c : Thread nD τ).loc main_arg3))
    ⟨t.val, lt32 t⟩ (blk0_at m c t) (blk1_at m c t) (blk2_at m c t) (blk3_at m c t) y).trans ?_
  refine congrArg (result m c) (funext fun a => Fin.ext ?_)
  have hy0 : (y 0).val < 1 := (y 0).isLt
  match a with
  | ⟨0, _⟩ => show t.val = win0_4.index t (0 : Fin 3) * 1 + 1 * (y 0).val; omega
  | ⟨1, _⟩ => show (y 1).val = win0_4.index t (1 : Fin 3) * 768 + 1 * (y 1).val; omega
  | ⟨2, _⟩ => show (y 2).val = win0_4.index t (2 : Fin 3) * 1024 + 1 * (y 2).val; omega

/-- An index of the array is in point t's block iff each coordinate is in the block's range on its axis. -/
theorem mem_blk (t : Fin cfg0.N) (i : S32x768x1024.Idx) :
    i ∈ ((cfg0.win 4).blk t).view.set ↔ ∀ a : Fin 3, win0_4.index t a * S1x768x1024.size a ≤ (i a).val
      ∧ (i a).val < win0_4.index t a * S1x768x1024.size a + S1x768x1024.size a := by
  show i ∈ ((View.whole main_v4).slice (win0_4.rect t)).set ↔ _
  rw [View.set_slice_whole, Rect.mem_set_unit]
  exact Iff.rfl

/-- THE ARRAY after the run: the 32 blocks cover it (index i lies in the block of point i₀), so it holds the
    specification everywhere. -/
theorem final (c : Dev nD) : (dats m 0 c).arrAt 4 cfg0.N = result m c :=
  (dats m 0 c).arrAt_eq_of_cover 4 (result m c) (fun t _ => flushed_eq m c t) fun i => by
    have hi0 : (i 0).val < 32 := (i 0).isLt
    have hi1 : (i 1).val < 768 := (i 1).isLt
    have hi2 : (i 2).val < 1024 := (i 2).isLt
    obtain ⟨t0, ht0⟩ : ∃ t0 : Fin cfg0.N, t0.val = (i 0).val :=
      ⟨⟨(i 0).val, lt_of_lt_of_eq hi0 (show cfg0.N = 32 from N_0).symm⟩, rfl⟩
    obtain ⟨-, -, -, e0, e1, e2, -⟩ := idx_facts t0
    refine ⟨t0, flush0_4 t0, ?_⟩
    rw [mem_blk]
    intro a
    match a with
    | ⟨0, _⟩ =>
      show win0_4.index t0 (0 : Fin 3) * 1 ≤ (i 0).val ∧ (i 0).val < win0_4.index t0 (0 : Fin 3) * 1 + 1
      omega
    | ⟨1, _⟩ =>
      show win0_4.index t0 (1 : Fin 3) * 768 ≤ (i 1).val ∧ (i 1).val < win0_4.index t0 (1 : Fin 3) * 768 + 768
      omega
    | ⟨2, _⟩ =>
      show win0_4.index t0 (2 : Fin 3) * 1024 ≤ (i 2).val ∧ (i 2).val < win0_4.index t0 (2 : Fin 3) * 1024 + 1024
      omega

end Cert.KernelIdeal.ArrayValue

end
-- ==== Proof.KernelRun.lean ====
/-
  The kernel's run, read: the region's result array reshaped by the one host line after the region.

  The program's result is the [32, 768, 1024] array the region writes, viewed [32, 768, 32, 32]; the region's array
  holds the specification, so the result is the specification reshaped, and the arguments end as they were launched.
-/
import proofs.«146230_j65481071396288_1_alg».proof.Proof.KernelArray

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.AttnSpec

variable (m : (ℓ : Loc nD τ sig) → Buf (Elt Ideal) ℓ) (ρ : Dev nD → PrngReg)

/-- The program's result: the specification, viewed [32, 768, 32, 32]. -/
abbrev resultNCHW (c : Dev nD) : S32x768x32x32.Idx → EReal :=
  shapeCast S32x768x32x32 (result m c) shapeCasts_S32x768x1024_S32x768x32x32

/-- The host line after the region reshapes the region's result array. -/
theorem tail_eq (c : Dev nD) :
    Pipeline.afterTail₀ cfgs (dats m) 0 (V0 m) [hostOps1] c main_v5 = resultNCHW m c := by
  unfold Pipeline.afterTail₀
  show StableHlo.after hostOps1 _ (Proc.devRef .tc main_v5) = _
  after_results
  exact congrArg (fun a => shapeCast S32x768x32x32 a shapeCasts_S32x768x1024_S32x768x32x32)
    ((Pipeline.withArrays_arr spec0 launch0.win.arr_inj c _ _ 4).trans (final m c))

/-- The run, read: the result at the reshaped specification, the arguments unchanged. -/
theorem run : θ_run defs (onTc (τ := τ) (main (F := Ideal))) ⟨m, fun _ => 0, ρ⟩ fun r => ∀ c : Dev nD,
      r.2.mem ((c.tc : Thread nD τ).loc main_v5) = resultNCHW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.RefScores.lean ====
/-
  The reference, stage by stage, up to the scaled scores.

  The reference moves the channel axis last, multiplies by the stacked weight from the right (entry (b, n, r) is the
  sum over k of X b k n times W r k), takes the three column ranges and moves the position axis last again: at
  (b, c, n) these are the three projections of the specification with the two factors of each product exchanged,
  which on the extended reals changes nothing. The scores contract the position axis per batch element and are
  multiplied by the scale.
-/
import proofs.«146230_j65481071396288_1_alg».proof.Proof.Gen.ReferenceIdeal.Read
import proofs.«146230_j65481071396288_1_alg».proof.Proof.AttnSpec

noncomputable section

open Idealize.ShloMosaic Idealize.ShloMosaic.ValueIdx

namespace Cert.ReferenceIdeal.RefValue

open Cert.ReferenceIdeal Cert.ReferenceIdeal.Gen Cert.ReferenceIdeal.Read Cert.AttnSpec

/-- Batch element `b` of the input, viewed [32, 768, 1024], as a 768 × 1024 matrix. -/
abbrev X (x0 : (⟨S32x768x32x32, .f32⟩ : BufTy).Contents (Elt Ideal)) (b : Fin 32) : Fin 768 → Fin 1024 → EReal :=
  fun k n => val_main_v0 (F := Ideal) x0 (ix3 b k n)

/-- The product with the stacked weight at (b, n, r): row `r` of the weight against column `n` of the batch element. -/
theorem v2_at (x0 : (⟨S32x768x32x32, .f32⟩ : BufTy).Contents (Elt Ideal)) (x1 : (⟨S2304x768, .f32⟩ : BufTy).Contents (Elt Ideal)) (b : Fin 32) (n : Fin 1024) (r : Fin 2304) :
    val_main_v2 (F := Ideal) x0 x1 (ix3 b n r) = ∑ k : Fin 768, mat2 x1 r k * X x0 b k n := by
  rw [val_main_v2_apply]
  refine Finset.sum_congr rfl fun k _ => ?_
  rw [val_main_v1_apply]
  refine (mul_comm _ _).trans ?_
  refine congrArg₂ (· * ·) (congrArg x1 (funext fun a => Fin.ext ?_))
    (congrArg (val_main_v0 (F := Ideal) x0) (funext fun a => Fin.ext ?_))
  · match a with | ⟨0, _⟩ => rfl | ⟨1, _⟩ => rfl
  · match a with | ⟨0, _⟩ => rfl | ⟨1, _⟩ => rfl | ⟨2, _⟩ => rfl

/-- The first projection at (b, c, n). -/
theorem q_at (x0 : (⟨S32x768x32x32, .f32⟩ : BufTy).Contents (Elt Ideal)) (x1 : (⟨S2304x768, .f32⟩ : BufTy).Contents (Elt Ideal)) (b : Fin 32) (c : Fin 768) (n : Fin 1024) :
    val_main_v6 (F := Ideal) x0 x1 (ix3 b c n) = proj (mat2 x1) (X x0 b) 0 (by omega) c n := by
  rw [val_main_v6_apply, val_main_v3_apply]
  have e : idx_main_v3 (idx_main_v6 (ix3 b c n)) = ix3 b n (wrow 0 (by omega) c) :=
    funext fun a => Fin.ext (by
      match a with
      | ⟨0, _⟩ => rfl
      | ⟨1, _⟩ => rfl
      | ⟨2, _⟩ => exact (Nat.zero_add _).symm)
  rw [e, v2_at]
  rfl

/-- The second projection at (b, c, n). -/
theorem k_at (x0 : (⟨S32x768x32x32, .f32⟩ : BufTy).Contents (Elt Ideal)) (x1 : (⟨S2304x768, .f32⟩ : BufTy).Contents (Elt Ideal)) (b : Fin 32) (c : Fin 768) (n : Fin 1024) :
    val_main_v7 (F := Ideal) x0 x1 (ix3 b c n) = proj (mat2 x1) (X x0 b) 768 (by omega) c n := by
  rw [val_main_v7_apply, val_main_v4_apply]
  have e : idx_main_v4 (idx_main_v7 (ix3 b c n)) = ix3 b n (wrow 768 (by omega) c) :=
    funext fun a => Fin.ext (by match a with | ⟨0, _⟩ => rfl | ⟨1, _⟩ => rfl | ⟨2, _⟩ => rfl)
  rw [e, v2_at]
  rfl

/-- The third projection at (b, c, n). -/
theorem v_at (x0 : (⟨S32x768x32x32, .f32⟩ : BufTy).Contents (Elt Ideal)) (x1 : (⟨S2304x768, .f32⟩ : BufTy).Contents (Elt Ideal)) (b : Fin 32) (c : Fin 768) (n : Fin 1024) :
    val_main_v8 (F := Ideal) x0 x1 (ix3 b c n) = proj (mat2 x1) (X x0 b) 1536 (by omega) c n := by
  rw [val_main_v8_apply, val_main_v5_apply]
  have e : idx_main_v5 (idx_main_v8 (ix3 b c n)) = ix3 b n (wrow 1536 (by omega) c) :=
    funext fun a => Fin.ext (by match a with | ⟨0, _⟩ => rfl | ⟨1, _⟩ => rfl | ⟨2, _⟩ => rfl)
  rw [e, v2_at]
  rfl

/-- The scores of batch element `b`, as the specification names them. -/
abbrev S (x0 : (⟨S32x768x32x32, .f32⟩ : BufTy).Contents (Elt Ideal)) (x1 : (⟨S2304x768, .f32⟩ : BufTy).Contents (Elt Ideal)) (b : Fin 32) : Fin 768 → Fin 768 → EReal :=
  score (proj (mat2 x1) (X x0 b) 0 (by omega)) (proj (mat2 x1) (X x0 b) 768 (by omega))

/-- The scaled scores at (b, c, d). -/
theorem s_at (x0 : (⟨S32x768x32x32, .f32⟩ : BufTy).Contents (Elt Ideal)) (x1 : (⟨S2304x768, .f32⟩ : BufTy).Contents (Elt Ideal)) (b : Fin 32) (c d : Fin 768) :
    val_main_v11 (F := Ideal) x0 x1 (ix3 b c d) = S x0 x1 b c d := by
  rw [val_main_v11_apply, val_main_v9_apply, val_main_v10_apply, val_main_cst_apply]
  show (∑ n : Fin 1024, val_main_v6 (F := Ideal) x0 x1 (lidx_main_v9 (ix3 b c d) n)
      * val_main_v7 (F := Ideal) x0 x1 (ridx_main_v9 (ix3 b c d) n)) * scale = _
  refine congrArg (fun t : EReal => t * scale) (Finset.sum_congr rfl fun n _ => ?_)
  have el : lidx_main_v9 (ix3 b c d) n = ix3 b c n := funext fun a => Fin.ext (by match a with | ⟨0, _⟩ => rfl | ⟨1, _⟩ => rfl | ⟨2, _⟩ => rfl)
  have er : ridx_main_v9 (ix3 b c d) n = ix3 b d n := funext fun a => Fin.ext (by match a with | ⟨0, _⟩ => rfl | ⟨1, _⟩ => rfl | ⟨2, _⟩ => rfl)
  rw [el, er, q_at, k_at]

end Cert.ReferenceIdeal.RefValue

end
-- ==== Proof.RefAttention.lean ====
/-
  The reference from the scores to the result.

  Along the last axis of the scores the reference takes the maximum (a fold of max from −∞, then once more against −∞),
  subtracts it, exponentiates, sums (from zero, which adds nothing) and divides: at (b, c, d) the softmax of the
  specification. The normalised scores contract with the third projection per batch element; the result, channel axis
  last, is multiplied by the output weight from the right, the bias is added along the channel axis, and the position
  axis is moved last again: at (b, d, n) attention over channels of batch element b, the factors of the last product
  exchanged, which on the extended reals changes nothing.
-/
import proofs.«146230_j65481071396288_1_alg».proof.Proof.RefScores

noncomputable section

open Idealize.ShloMosaic Idealize.ShloMosaic.ValueIdx

namespace Cert.ReferenceIdeal.RefValue

open Cert.ReferenceIdeal Cert.ReferenceIdeal.Gen Cert.ReferenceIdeal.Read Cert.AttnSpec

/-- The reduced index (b, c) with the last coordinate `d` put back is (b, c, d). -/
theorem lift_last (h : S32x768x768.Reduces [2] S32x768) (b : Fin 32) (c : Fin 768) (d : Fin (S32x768x768.size 2)) :
    h.lift (ix2 b c) d = ix3 b c ⟨d.val, d.isLt⟩ := by
  funext a; apply Fin.ext
  fin_cases a <;> rfl

/-- The row maximum at (b, c). -/
theorem max_at (x0 : (⟨S32x768x32x32, .f32⟩ : BufTy).Contents (Elt Ideal)) (x1 : (⟨S2304x768, .f32⟩ : BufTy).Contents (Elt Ideal)) (b : Fin 32) (c : Fin 768) :
    val_main_v14 (F := Ideal) x0 x1 (ix2 b c) = rowMax (S x0 x1 b) c := by
  have hR : S32x768x768.Reduces [2] S32x768 := by decide
  rw [val_main_v14_apply, val_main_v13_apply, val_main_cst_1_apply]
  unfold val_main_v12
  rw [Host.reduce_eq_fold_single FloatOps.maximumf _ _ reducesTo_S32x768x768_S32x768_d2 hR h_S_]
  have hf : (val_main_v11 (F := Ideal) x0 x1 ∘ hR.lift (ix2 b c)) = fun d : Fin 768 => S x0 x1 b c d :=
    funext fun d => (congrArg (val_main_v11 (F := Ideal) x0 x1) (lift_last hR b c d)).trans (s_at x0 x1 b c _)
  exact congrArg (fun f => max negInf (Finset.fold max negInf f (Finset.univ : Finset (Fin 768)))) hf

/-- The exponential at (b, c, d). -/
theorem e_at (x0 : (⟨S32x768x32x32, .f32⟩ : BufTy).Contents (Elt Ideal)) (x1 : (⟨S2304x768, .f32⟩ : BufTy).Contents (Elt Ideal)) (b : Fin 32) (c d : Fin 768) :
    val_main_v18 (F := Ideal) x0 x1 (ix3 b c d) = expo (S x0 x1 b) c d := by
  rw [val_main_v18_apply, val_main_v17_apply, val_main_v16_apply, val_main_v15_apply]
  have e : idx_main_v15 (idx_main_v16 (ix3 b c d)) = ix2 b c := funext fun a => Fin.ext (by match a with | ⟨0, _⟩ => rfl | ⟨1, _⟩ => rfl)
  rw [e, max_at, s_at]
  rfl

/-- The row sum of the exponentials at (b, c): the sum from zero is the sum. -/
theorem z_at (x0 : (⟨S32x768x32x32, .f32⟩ : BufTy).Contents (Elt Ideal)) (x1 : (⟨S2304x768, .f32⟩ : BufTy).Contents (Elt Ideal)) (b : Fin 32) (c : Fin 768) :
    val_main_v19 (F := Ideal) x0 x1 (ix2 b c) = ∑ d : Fin 768, expo (S x0 x1 b) c d := by
  rw [val_main_v19_apply, val_main_cst_2_apply]
  show Ideal.ofBits .f32 0x00000000#32 + _ = _
  rw [Ideal.ofBits_zero_f32, zero_add]
  refine Finset.sum_congr rfl fun d _ => ?_
  have e : idx_main_v19 (ix2 b c) d = ix3 b c d := funext fun a => Fin.ext (by match a with | ⟨0, _⟩ => rfl | ⟨1, _⟩ => rfl | ⟨2, _⟩ => rfl)
  rw [e, e_at]

/-- The softmax at (b, c, d). -/
theorem a_at (x0 : (⟨S32x768x32x32, .f32⟩ : BufTy).Contents (Elt Ideal)) (x1 : (⟨S2304x768, .f32⟩ : BufTy).Contents (Elt Ideal)) (b : Fin 32) (c d : Fin 768) :
    val_main_v22 (F := Ideal) x0 x1 (ix3 b c d) = soft (S x0 x1 b) c d := by
  rw [val_main_v22_apply, val_main_v21_apply, val_main_v20_apply]
  have e : idx_main_v20 (idx_main_v21 (ix3 b c d)) = ix2 b c := funext fun a => Fin.ext (by match a with | ⟨0, _⟩ => rfl | ⟨1, _⟩ => rfl)
  rw [e, z_at, e_at]
  rfl

/-- The normalised scores applied to the third projection, at (b, c, n). -/
theorem y_at (x0 : (⟨S32x768x32x32, .f32⟩ : BufTy).Contents (Elt Ideal)) (x1 : (⟨S2304x768, .f32⟩ : BufTy).Contents (Elt Ideal)) (b : Fin 32) (c : Fin 768) (n : Fin 1024) :
    val_main_v23 (F := Ideal) x0 x1 (ix3 b c n)
      = mix (soft (S x0 x1 b)) (proj (mat2 x1) (X x0 b) 1536 (by omega)) c n := by
  rw [val_main_v23_apply]
  unfold mix
  refine Finset.sum_congr rfl fun d _ => ?_
  have el : lidx_main_v23 (ix3 b c n) d = ix3 b c d := funext fun a => Fin.ext (by match a with | ⟨0, _⟩ => rfl | ⟨1, _⟩ => rfl | ⟨2, _⟩ => rfl)
  have er : ridx_main_v23 (ix3 b c n) d = ix3 b d n := funext fun a => Fin.ext (by match a with | ⟨0, _⟩ => rfl | ⟨1, _⟩ => rfl | ⟨2, _⟩ => rfl)
  rw [el, er, a_at, v_at]

/-- The result, position axis last, at (b, d, n): attention over channels of batch element `b`. -/
theorem out_at (x0 : (⟨S32x768x32x32, .f32⟩ : BufTy).Contents (Elt Ideal)) (x1 : (⟨S2304x768, .f32⟩ : BufTy).Contents (Elt Ideal)) (x2 : (⟨S768x768, .f32⟩ : BufTy).Contents (Elt Ideal)) (x3 : (⟨S768, .f32⟩ : BufTy).Contents (Elt Ideal)) (b : Fin 32) (d : Fin 768) (n : Fin 1024) :
    val_main_v29 (F := Ideal) x0 x1 x2 x3 (ix3 b d n)
      = attn (mat2 x1) (mat2 x2) (fun d => x3 (ix1 d)) (X x0 b) d n := by
  rw [val_main_v29_apply, val_main_v28_apply, val_main_v25_apply, val_main_v27_apply, val_main_v26_apply]
  unfold attn outp
  show (∑ c : Fin 768, val_main_v24 (F := Ideal) x0 x1 (lidx_main_v25 (idx_main_v29 (ix3 b d n)) c)
      * x2 (ridx_main_v25 (idx_main_v29 (ix3 b d n)) c)) + x3 (idx_main_v26 (idx_main_v27 (idx_main_v29 (ix3 b d n)))) = _
  refine congrArg₂ (· + ·) (Finset.sum_congr rfl fun c _ => ?_)
    (congrArg x3 (funext fun a => Fin.ext (by match a with | ⟨0, _⟩ => rfl)))
  rw [val_main_v24_apply]
  refine (mul_comm _ _).trans ?_
  have e1 : idx_main_v24 (lidx_main_v25 (idx_main_v29 (ix3 b d n)) c) = ix3 b c n := funext fun a => Fin.ext (by match a with | ⟨0, _⟩ => rfl | ⟨1, _⟩ => rfl | ⟨2, _⟩ => rfl)
  have e2 : ridx_main_v25 (idx_main_v29 (ix3 b d n)) c = ix2 d c := funext fun a => Fin.ext (by match a with | ⟨0, _⟩ => rfl | ⟨1, _⟩ => rfl)
  rw [e1, e2, y_at]

/-- THE REFERENCE IS THE SPECIFICATION: its result before the last reshape, as a whole array. -/
theorem ref_eq (x0 : (⟨S32x768x32x32, .f32⟩ : BufTy).Contents (Elt Ideal)) (x1 : (⟨S2304x768, .f32⟩ : BufTy).Contents (Elt Ideal)) (x2 : (⟨S768x768, .f32⟩ : BufTy).Contents (Elt Ideal)) (x3 : (⟨S768, .f32⟩ : BufTy).Contents (Elt Ideal)) :
    val_main_v29 (F := Ideal) x0 x1 x2 x3 = G (val_main_v0 (F := Ideal) x0) x1 x2 x3 := by
  funext j
  obtain ⟨b, d, n, rfl⟩ : ∃ (b : Fin 32) (d : Fin 768) (n : Fin 1024), j = ix3 b d n := ⟨j 0, j 1, j 2, eq_ix3 j⟩
  rw [out_at]
  rfl

end Cert.ReferenceIdeal.RefValue

end
-- ==== Proof.lean ====
/-
  Attention over channels: a fused kernel against its plain reference, equal on the extended reals.

  Both programs take x [32, 768, 32, 32], a stacked weight [2304, 768], an output weight [768, 768] and a bias [768].
  Per batch element, with X the 768 × 1024 matrix of channels by positions: three projections Q, K, V = W · X by row
  ranges of the stacked weight; scores Q · Kᵀ over the positions, times a scale; a softmax along each row of scores;
  the normalised scores applied to V; the output weight applied to that; the bias added per channel. The kernel works
  one batch element per grid point, keeps every intermediate in a scratch buffer that it writes whole and reads back,
  and narrows formats between the products, which changes nothing on the extended reals. The reference moves the
  channel axis last, multiplies by the weights from the right, and moves it back. The two differ only in the order of
  the two factors of some products, and multiplication of extended reals is commutative; the scale and the reductions'
  starting values are the same words in both programs and are never evaluated. No finiteness of the inputs is used.

  The modules: AttnSpec (the specification G), KernelPiece (the scratch round trips compose to one term of the input
  blocks), KernelPayloads and KernelAttention (that term at an entry is attention of the blocks), KernelArray (each
  point writes block t of G, and the blocks cover the array), KernelRun (the reshape after the region), RefScores and
  RefAttention (the reference, stage by stage, is G). Both programs end with the same reshape to [32, 768, 32, 32].
-/
import proofs.«146230_j65481071396288_1_alg».proof.Defs
import proofs.«146230_j65481071396288_1_alg».proof.Proof.Gen.Kernel
import proofs.«146230_j65481071396288_1_alg».proof.Proof.Gen.Kernel.Skeleton
import proofs.«146230_j65481071396288_1_alg».proof.Proof.Gen.Kernel.Launch
import proofs.«146230_j65481071396288_1_alg».proof.Proof.Gen.Kernel.Points
import proofs.«146230_j65481071396288_1_alg».proof.Proof.Gen.Kernel.Frame
import proofs.«146230_j65481071396288_1_alg».proof.Proof.Gen.KernelIdeal
import proofs.«146230_j65481071396288_1_alg».proof.Proof.Gen.KernelIdeal.Skeleton
import proofs.«146230_j65481071396288_1_alg».proof.Proof.Gen.KernelIdeal.Launch
import proofs.«146230_j65481071396288_1_alg».proof.Proof.Gen.KernelIdeal.Points
import proofs.«146230_j65481071396288_1_alg».proof.Proof.Gen.KernelIdeal.Frame
import proofs.«146230_j65481071396288_1_alg».proof.Proof.Gen.ReferenceIdeal
import proofs.«146230_j65481071396288_1_alg».proof.Proof.Gen.Pre_finite_inputs
import proofs.«146230_j65481071396288_1_alg».proof.Proof.Gen.ReferenceIdeal.Run
import proofs.«146230_j65481071396288_1_alg».proof.Proof.Gen.ReferenceIdeal.Read
import proofs.«146230_j65481071396288_1_alg».proof.Proof.AttnSpec
import proofs.«146230_j65481071396288_1_alg».proof.Proof.KernelRun
import proofs.«146230_j65481071396288_1_alg».proof.Proof.RefAttention
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- On the extended reals the kernel's result is the specification of its arguments, reshaped; the reference's is the
    specification of its arguments, reshaped the same way; and the arguments agree. -/
theorem algebraic : Cert.algebraic_KernelIdeal_ReferenceIdeal := by
  intro m ρ m' ρ' _ hagree
  refine ⟨fun c => Cert.KernelIdeal.ArrayValue.resultNCHW m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2]
  unfold Cert.ReferenceIdeal.Read.val_main_v30
  rw [Cert.ReferenceIdeal.RefValue.ref_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
